-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S1024x256 .f32) (main_arg1 : FVec F S256x256 .f32) (main_arg2 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S1024x256 : Shape := ⟨2, ![1024, 256]⟩
abbrev S256x256 : Shape := ⟨2, ![256, 256]⟩
abbrev S256 : Shape := ⟨1, ![256]⟩
abbrev S_ : Shape := ⟨0, ![]⟩
abbrev S1x256 : Shape := ⟨2, ![1, 256]⟩
abbrev S1024x256x256 : Shape := ⟨3, ![1024, 256, 256]⟩
abbrev S32x256 : Shape := ⟨2, ![32, 256]⟩
abbrev S32x256x256 : Shape := ⟨3, ![32, 256, 256]⟩
abbrev S1x256x1 : Shape := ⟨3, ![1, 256, 1]⟩
abbrev S8x256 : Shape := ⟨2, ![8, 256]⟩
abbrev S8x256x1 : Shape := ⟨3, ![8, 256, 1]⟩
abbrev S1x256x256 : Shape := ⟨3, ![1, 256, 256]⟩
abbrev S8x256x256 : Shape := ⟨3, ![8, 256, 256]⟩
abbrev S1024x65536 : Shape := ⟨2, ![1024, 65536]⟩

abbrev nBuf : Space → Nat
  | .hbm => 14
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S1024x256x256, .f32⟩
  | .hbm, ⟨13, _⟩ => ⟨S1024x65536, .f32⟩
  | .local _ .vmem, ⟨0, _⟩ => ⟨S32x256, .f32⟩
  | .local _ .vmem, ⟨1, _⟩ => ⟨S32x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S32x256x256, .f32⟩
  | .local _ .vmem, ⟨7, _⟩ => ⟨S32x256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c8_i32 : BitVec 32 := 8#32
  let v10 : BitVec 32 := Scalar.muli c0_i32 c8_i32
  v10
def k0_off1 (c0_i32 : BitVec 32) : Fin 2 → Nat :=
  let c8_i32 : BitVec 32 := 8#32
  let v10 : BitVec 32 := Scalar.muli c0_i32 c8_i32
  let v11 : BitVec 32 := v10
  let v12 : Index := Scalar.indexCast v11
  let c0_7 : Index := 0#32
  ![v12.toNat, 0]
def k0_off2 (c0_i32 : BitVec 32) : Fin 3 → Nat :=
  let c8_i32 : BitVec 32 := 8#32
  let v10 : BitVec 32 := Scalar.muli c0_i32 c8_i32
  let v11 : BitVec 32 := v10
  let v41 : Index := Scalar.indexCast v11
  let c0_10 : Index := 0#32
  let c0_11 : Index := 0#32
  ![v41.toNat, 0, 0]
def k0_mult2 : BitVec 32 :=
  let c1_i32 : BitVec 32 := 1#32
  let c8_i32_12 : BitVec 32 := 8#32
  let v43 : BitVec 32 := Scalar.muli c1_i32 c8_i32_12
  v43
def k0_mult3 : BitVec 32 :=
  let c2_i32 : BitVec 32 := 2#32
  let c8_i32_18 : BitVec 32 := 8#32
  let v76 : BitVec 32 := Scalar.muli c2_i32 c8_i32_18
  v76
def k0_mult4 : BitVec 32 :=
  let c3_i32 : BitVec 32 := 3#32
  let c8_i32_24 : BitVec 32 := 8#32
  let v109 : BitVec 32 := Scalar.muli c3_i32 c8_i32_24
  v109
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S256x256 : S_.BroadcastsInDim S256x256 (![] : Fin 0 → Fin S256x256.rank)
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1 : S1x256.ShapeCasts S1x256x1
  h_S8x256 : 0 < S8x256.numel
  shapeCasts_S8x256_S8x256x1 : S8x256.ShapeCasts S8x256x1
  shapeCasts_S256x256_S1x256x256 : S256x256.ShapeCasts S1x256x256
  broadcasts_S8x256x1_S8x256x256 : S8x256x1.Broadcasts S8x256x256
  broadcasts_S1x256x256_S8x256x256 : S1x256x256.Broadcasts S8x256x256
  broadcasts_S1x256x1_S8x256x256 : S1x256x1.Broadcasts S8x256x256
  h_S8x256x256 : 0 < S8x256x256.numel
  shapeCasts_S1024x256x256_S1024x65536 : S1024x256x256.ShapeCasts S1024x65536
  hrank0 : 0 < grid0.rank
  k0_mult1_dvd : 8 ∣ k0_mult1.toNat
  k0_off1_inb : ∀ (r : Fin 4), ∀ a, (k0_off1 (BitVec.ofNat 32 r.val)) a + S8x256.size a ≤ S32x256.size a
  k0_off2_inb : ∀ (r : Fin 4), ∀ a, (k0_off2 (BitVec.ofNat 32 r.val)) a + S8x256x256.size a ≤ S32x256x256.size a
  k0_mult2_dvd : 8 ∣ k0_mult2.toNat
  k0_mult3_dvd : 8 ∣ k0_mult3.toNat
  k0_mult4_dvd : 8 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S1024x256.size a
  hwx0_0 : ∀ i : grid0.Coords, EltTy.bits .f32 = 32 ∨ (Rect.block (s := S1024x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256x256.size a ≤ S1024x256x256.size a
  hwx0_5 : ∀ i : grid0.Coords, EltTy.bits .f32 = 32 ∨ (Rect.block (s := S1024x256x256) S32x256x256.size (cc0_transform_5 i) (hinb0_5 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S256 : Shape := ⟨1, ![256]⟩
abbrev S1024x256x1 : Shape := ⟨3, ![1024, 256, 1]⟩
abbrev S1x256x256 : Shape := ⟨3, ![1, 256, 256]⟩
abbrev S1024x256x256 : Shape := ⟨3, ![1024, 256, 256]⟩
abbrev S1x256x1 : Shape := ⟨3, ![1, 256, 1]⟩
abbrev S_ : Shape := ⟨0, ![]⟩
abbrev S1024x65536 : Shape := ⟨2, ![1024, 65536]⟩

abbrev nBuf : Space → Nat
  | .hbm => 26
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .f32⟩
  | .hbm, ⟨3, _⟩ => ⟨S1024x256x1, .f32⟩
  | .hbm, ⟨4, _⟩ => ⟨S1x256x256, .f32⟩
  | .hbm, ⟨5, _⟩ => ⟨S1024x256x256, .f32⟩
  | .hbm, ⟨6, _⟩ => ⟨S1024x256x256, .f32⟩
  | .hbm, ⟨7, _⟩ => ⟨S1024x256x256, .f32⟩
  | .hbm, ⟨8, _⟩ => ⟨S1x256x1, .f32⟩
  | .hbm, ⟨9, _⟩ => ⟨S1x256x1, .f32⟩
  | .hbm, ⟨10, _⟩ => ⟨S1024x256x256, .f32⟩
  | .hbm, ⟨11, _⟩ => ⟨S1024x256x256, .i1⟩
  | .hbm, ⟨12, _⟩ => ⟨S1024x256x256, .f32⟩
  | .hbm, ⟨13, _⟩ => ⟨S1024x256x256, .i1⟩
  | .hbm, ⟨14, _⟩ => ⟨S1024x256x256, .i1⟩
  | .hbm, ⟨15, _⟩ => ⟨S1024x256x256, .f32⟩
  | .hbm, ⟨16, _⟩ => ⟨S_, .f32⟩
  | .hbm, ⟨17, _⟩ => ⟨S1024x256x256, .f32⟩
  | .hbm, ⟨18, _⟩ => ⟨S1024x256x256, .f32⟩
  | .hbm, ⟨19, _⟩ => ⟨S_, .f32⟩
  | .hbm, ⟨20, _⟩ => ⟨S1024x256x256, .f32⟩
  | .hbm, ⟨21, _⟩ => ⟨S1024x256x256, .f32⟩
  | .hbm, ⟨22, _⟩ => ⟨S_, .f32⟩
  | .hbm, ⟨23, _⟩ => ⟨S1024x256x256, .f32⟩
  | .hbm, ⟨24, _⟩ => ⟨S1024x256x256, .f32⟩
  | .hbm, ⟨25, _⟩ => ⟨S1024x65536, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S1024x256_S1024x256x1_0_1 : S1024x256.BroadcastsInDim S1024x256x1 (![0, 1] : Fin 2 → Fin S1024x256x1.rank)
  bcast_S256x256_S1x256x256_1_2 : S256x256.BroadcastsInDim S1x256x256 (![1, 2] : Fin 2 → Fin S1x256x256.rank)
  bcast_S1024x256x1_S1024x256x256_0_1_2 : S1024x256x1.BroadcastsInDim S1024x256x256 (![0, 1, 2] : Fin 3 → Fin S1024x256x256.rank)
  bcast_S1x256x256_S1024x256x256_0_1_2 : S1x256x256.BroadcastsInDim S1024x256x256 (![0, 1, 2] : Fin 3 → Fin S1024x256x256.rank)
  bcast_S256_S1x256x1_1 : S256.BroadcastsInDim S1x256x1 (![1] : Fin 1 → Fin S1x256x1.rank)
  bcast_S1x256x1_S1024x256x256_0_1_2 : S1x256x1.BroadcastsInDim S1024x256x256 (![0, 1, 2] : Fin 3 → Fin S1024x256x256.rank)
  bcast_S_S1024x256x256 : S_.BroadcastsInDim S1024x256x256 (![] : Fin 0 → Fin S1024x256x256.rank)
  shapeCasts_S1024x256x256_S1024x65536 : S1024x256x256.ShapeCasts S1024x65536

variable [Facts₀]

class Facts : Prop extends Facts₀ where

variable [Facts]
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.BinSpec.lean ====
/-
  One entry of the binned output, as a function of five numbers.

  For a sample x, a bin centre φ and a half-width w the entry is
      0.5·cos(x − φ) + 0.5   when  −w < x − φ ≤ w,   and 0 otherwise.
  The kernel does not evaluate the cosine of the difference: it is handed c = 0.5·cos φ and s = 0.5·sin φ and forms
      cos x · c + sin x · s + 0.5
  under the same test (with the lower bound written 0 − w). For real x and φ the two values agree, by the
  subtraction formula  cos(x − φ) = cos x · cos φ + sin x · sin φ  and distributivity of the real numbers; the
  test is the same because 0 − w = −w for every extended real w. (At an infinite x or φ the two sides differ,
  which is why the arrays are required to be finite.)
-/
import Idealize.ShloMosaic.PureOps.Ideal
import Idealize.ShloMosaic.PureOps.Ideal.Laws
import Idealize.ShloMosaic.Lib.ValueIdx
import proofs.«122054_j69312182222975_2_alg».proof.Proof.LibRealSum

noncomputable section

namespace Cert.Bin

open Idealize.ShloMosaic Idealize.ShloMosaic.ValueIdx Cert.LibRealSum

/-- The pattern 0x3F000000 denotes the real number one half. -/
theorem half_eq : Ideal.ofBits .f32 0x3F000000#32 = ((1 / 2 : ℝ) : EReal) := by
  simp [Ideal.ofBits, Ideal.ieee, -EReal.coe_mul]; norm_num

/-- The entry as the kernel forms it from the difference d, the two bounds, cos x, sin x and the two halved
    tables' entries. -/
def entryK (d niv iv cx sx c s : Ideal .f32) : Ideal .f32 :=
  Scalar.select (IntOp.andi (FloatOps.cmpf .ogt d niv) (FloatOps.cmpf .ole d iv))
    (FloatOps.addf (FloatOps.addf (FloatOps.mulf cx c) (FloatOps.mulf sx s)) (Scalar.ofBits .f32 0x3F000000#32))
    (Scalar.ofBits .f32 0x00000000#32)

/-- The entry as the reference forms it from x, φ and w. -/
def entryR (x φ iv : Ideal .f32) : Ideal .f32 :=
  Scalar.select (IntOp.andi (FloatOps.cmpf .ogt (FloatOps.subf x φ) (FloatOps.hostNegf iv)) (FloatOps.cmpf .ole (FloatOps.subf x φ) iv))
    (FloatOps.addf (FloatOps.mulf (FloatOps.ofBits .f32 0x3F000000#32) (FloatOps.hostUnary .cos (FloatOps.subf x φ)))
      (FloatOps.ofBits .f32 0x3F000000#32))
    (FloatOps.ofBits .f32 0x00000000#32)

/-- The subtraction formula with both products halved, over the reals inside the extended reals. -/
theorem half_cos_sub (a b : ℝ) :
    Ideal.cos (a : EReal) * (Ideal.ofBits .f32 0x3F000000#32 * Ideal.cos (b : EReal))
        + Ideal.sin (a : EReal) * (Ideal.ofBits .f32 0x3F000000#32 * Ideal.sin (b : EReal))
      = Ideal.ofBits .f32 0x3F000000#32 * Ideal.cos ((a : EReal) - (b : EReal)) := by
  rw [half_eq, ← EReal.coe_sub, Ideal.cos_coe, Ideal.cos_coe, Ideal.cos_coe, Ideal.sin_coe, Ideal.sin_coe,
    ← EReal.coe_mul, ← EReal.coe_mul, ← EReal.coe_mul, ← EReal.coe_mul, ← EReal.coe_mul, ← EReal.coe_add,
    Real.cos_sub]
  exact congrArg _ (by ring)

/-- THE LAW: on real x and φ the kernel's entry, fed the halved cosine and sine of φ and the bound 0 − w, is the
    reference's entry. -/
theorem entryK_eq_entryR (x φ iv : Ideal .f32) (hx : IsReal x) (hφ : IsReal φ) :
    entryK (FloatOps.subf x φ) (FloatOps.subf (Scalar.ofBits .f32 0x00000000#32) iv) iv (FloatOps.cos x) (FloatOps.sin x)
        (FloatOps.mulf (FloatOps.ofBits .f32 0x3F000000#32) (FloatOps.hostUnary .cos φ))
        (FloatOps.mulf (FloatOps.ofBits .f32 0x3F000000#32) (FloatOps.hostUnary .sin φ))
      = entryR x φ iv := by
  obtain ⟨a, rfl⟩ := hx
  obtain ⟨b, rfl⟩ := hφ
  unfold entryK entryR
  have hz : FloatOps.subf (Scalar.ofBits (F := Ideal) .f32 0x00000000#32) iv = FloatOps.hostNegf iv := by
    show Ideal.ofBits .f32 0x00000000#32 - iv = -iv
    rw [Ideal.ofBits_zero_f32, zero_sub]
  have hv : FloatOps.addf (FloatOps.mulf (FloatOps.cos (F := Ideal) (φ := .f32) (a : EReal))
          (FloatOps.mulf (FloatOps.ofBits .f32 0x3F000000#32) (FloatOps.hostUnary .cos (b : EReal))))
        (FloatOps.mulf (FloatOps.sin (F := Ideal) (φ := .f32) (a : EReal))
          (FloatOps.mulf (FloatOps.ofBits .f32 0x3F000000#32) (FloatOps.hostUnary .sin (b : EReal))))
      = FloatOps.mulf (FloatOps.ofBits (F := Ideal) .f32 0x3F000000#32)
          (FloatOps.hostUnary .cos (FloatOps.subf (F := Ideal) (φ := .f32) (a : EReal) (b : EReal))) :=
    half_cos_sub a b
  rw [hz, hv]

/-- The kernel's entry for sample row r and bin (p, q), from the samples X [R, 256], the centres T and the two halved
    tables C, S [256, 256] and the half-widths as a row W [1, 256]. -/
def cellK {R : Nat} (X : (⟨2, ![R, 256]⟩ : Shape).Idx → Ideal .f32) (T C S : (⟨2, ![256, 256]⟩ : Shape).Idx → Ideal .f32)
    (W : (⟨2, ![1, 256]⟩ : Shape).Idx → Ideal .f32) (r : Fin R) (p q : Fin 256) : Ideal .f32 :=
  entryK (FloatOps.subf (X (ix2 r p)) (T (ix2 p q))) (FloatOps.subf (Scalar.ofBits .f32 0x00000000#32) (W (ix2 (0 : Fin 1) p)))
    (W (ix2 (0 : Fin 1) p)) (FloatOps.cos (X (ix2 r p))) (FloatOps.sin (X (ix2 r p))) (C (ix2 p q)) (S (ix2 p q))

/-- The reference's entry for sample row r and bin (p, q), from the samples, the centres and the half-widths w [256]. -/
def cellR {R : Nat} (X : (⟨2, ![R, 256]⟩ : Shape).Idx → Ideal .f32) (T : (⟨2, ![256, 256]⟩ : Shape).Idx → Ideal .f32)
    (w : (⟨1, ![256]⟩ : Shape).Idx → Ideal .f32) (r : Fin R) (p q : Fin 256) : Ideal .f32 :=
  entryR (X (ix2 r p)) (T (ix2 p q)) (w (ix1 p))

end Cert.Bin

end
-- ==== Proof.BinChunk.lean ====
/-
  Eight rows of the block at an index.

  The body handles its 32 sample rows eight at a time. For eight rows xc[a, p], the tables t, c, s [p, q] and the
  half-widths as a column w[0, p, 0] (and their negatives n[0, p, 0]) it forms, at (a, p, q), the entry of
  Proof/BinSpec.lean from the difference xc[a, p] − t[p, q], the bounds n[0, p, 0] and w[0, p, 0], cos xc[a, p],
  sin xc[a, p], c[p, q] and s[p, q]: every operand is first brought to the shape [8, 256, 256] by a recast that
  appends or prepends a unit axis followed by a broadcast along the unit axes, and such a pair read at (a, p, q) is
  the operand at the coordinates it has. All four groups of eight rows are this one function.
-/
import proofs.«122054_j69312182222975_2_alg».proof.Proof.Gen.KernelIdeal.Skeleton
import proofs.«122054_j69312182222975_2_alg».proof.Proof.BinSpec
import Idealize.ShloMosaic.Lib.Pipeline.Value
import Idealize.ShloMosaic.Lib.ValueIdx

noncomputable section

namespace Cert.Bin

open Idealize.ShloMosaic Idealize.ShloMosaic.ValueIdx Cert.KernelIdeal Cert.KernelIdeal.Gen

variable {α : Type}

/-- A column [8, 256] recast to [8, 256, 1] and broadcast along the last axis, read at (a, p, q), is the column at (a, p). -/
theorem col_at (w : S8x256.Idx → α) (h1 : S8x256.ShapeCasts S8x256x1) (h2 : S8x256x1.Broadcasts S8x256x256)
    (a : Fin 8) (p q : Fin 256) :
    broadcastTo S8x256x256 (shapeCast S8x256x1 w h1) h2 (ix3 a p q) = w (ix2 a p) := by
  refine (broadcastTo_apply _ h2 (ix3 a p q) (ix3 a p (0 : Fin 1)) (fun d => match d with
    | ⟨0, _⟩ => by show a.val = if (8 : Nat) = 1 then 0 else a.val; rw [if_neg (by decide)]
    | ⟨1, _⟩ => by show p.val = if (256 : Nat) = 1 then 0 else p.val; rw [if_neg (by decide)]
    | ⟨2, _⟩ => by show 0 = if (1 : Nat) = 1 then 0 else q.val; rw [if_pos rfl])).trans ?_
  refine shapeCast_apply w h1 (ix3 a p (0 : Fin 1)) (ix2 a p) ?_
  rw [Shape.rowMajor_val_three, Shape.rowMajor_val_two]
  show a.val * 256 + p.val = (a.val * 256 + p.val) * 1 + 0
  omega

/-- A table [256, 256] recast to [1, 256, 256] and broadcast along the first axis, read at (a, p, q), is the table at (p, q). -/
theorem tab_at (w : S256x256.Idx → α) (h1 : S256x256.ShapeCasts S1x256x256) (h2 : S1x256x256.Broadcasts S8x256x256)
    (a : Fin 8) (p q : Fin 256) :
    broadcastTo S8x256x256 (shapeCast S1x256x256 w h1) h2 (ix3 a p q) = w (ix2 p q) := by
  refine (broadcastTo_apply _ h2 (ix3 a p q) (ix3 (0 : Fin 1) p q) (fun d => match d with
    | ⟨0, _⟩ => by show 0 = if (1 : Nat) = 1 then 0 else a.val; rw [if_pos rfl]
    | ⟨1, _⟩ => by show p.val = if (256 : Nat) = 1 then 0 else p.val; rw [if_neg (by decide)]
    | ⟨2, _⟩ => by show q.val = if (256 : Nat) = 1 then 0 else q.val; rw [if_neg (by decide)])).trans ?_
  refine shapeCast_apply w h1 (ix3 (0 : Fin 1) p q) (ix2 p q) ?_
  rw [Shape.rowMajor_val_three, Shape.rowMajor_val_two]
  show p.val * 256 + q.val = (0 * 256 + p.val) * 256 + q.val
  omega

/-- A column [1, 256, 1] broadcast along its two unit axes, read at (a, p, q), is the column at (0, p, 0). -/
theorem wid_at (w : S1x256x1.Idx → α) (h2 : S1x256x1.Broadcasts S8x256x256) (a : Fin 8) (p q : Fin 256) :
    broadcastTo S8x256x256 w h2 (ix3 a p q) = w (ix3 (0 : Fin 1) p (0 : Fin 1)) :=
  broadcastTo_apply _ h2 (ix3 a p q) (ix3 (0 : Fin 1) p (0 : Fin 1)) (fun d => match d with
    | ⟨0, _⟩ => by show 0 = if (1 : Nat) = 1 then 0 else a.val; rw [if_pos rfl]
    | ⟨1, _⟩ => by show p.val = if (256 : Nat) = 1 then 0 else p.val; rw [if_neg (by decide)]
    | ⟨2, _⟩ => by show 0 = if (1 : Nat) = 1 then 0 else q.val; rw [if_pos rfl])

/-- The half-widths [1, 256] recast to [1, 256, 1], read at (0, p, 0), are the half-widths at (0, p). -/
theorem wid3_at (v5 : Vec Ideal S1x256 .f32) (p : Fin 256) :
    k0_pay3 v5 (ix3 (0 : Fin 1) p (0 : Fin 1)) = v5 (ix2 (0 : Fin 1) p) := by
  unfold k0_pay3
  rw [shapeCast_self]
  refine shapeCast_apply v5 _ (ix3 (0 : Fin 1) p (0 : Fin 1)) (ix2 (0 : Fin 1) p) ?_
  rw [Shape.rowMajor_val_three, Shape.rowMajor_val_two]
  show 0 * 256 + p.val = (0 * 256 + p.val) * 1 + 0
  omega

/-- Their negatives, formed as 0 − w, at (0, p, 0). -/
theorem nwid3_at (v5 : Vec Ideal S1x256 .f32) (p : Fin 256) :
    k0_pay4 v5 (ix3 (0 : Fin 1) p (0 : Fin 1))
      = FloatOps.subf (Scalar.ofBits (F := Ideal) .f32 0x00000000#32) (v5 (ix2 (0 : Fin 1) p)) := by
  show FloatOps.subf (Scalar.ofBits (F := Ideal) .f32 0x00000000#32) (k0_pay3 v5 (ix3 (0 : Fin 1) p (0 : Fin 1))) = _
  rw [wid3_at]

/-- A table recast to its own shape is the table. -/
theorem tab1_eq (v1 : Vec Ideal S256x256 .f32) : k0_pay1 v1 = v1 := shapeCast_self _ _
theorem tab2_eq (v3 : Vec Ideal S256x256 .f32) : k0_pay2 v3 = v3 := shapeCast_self _ _

/-- EIGHT ROWS AT AN INDEX: the entry of the specification from the operands at their own coordinates. -/
theorem chunk_at (v0 : Vec Ideal S256x256 .f32) (v2 v4 : FVec Ideal S256x256 .f32) (v7 v9 : FVec Ideal S1x256x1 .f32)
    (xc : Vec Ideal S8x256 .f32) (a : Fin 8) (p q : Fin 256) :
    k0_pay6 v0 v2 v4 v7 v9 xc (ix3 a p q)
      = entryK (FloatOps.subf (xc (ix2 a p)) (v0 (ix2 p q))) (v9 (ix3 (0 : Fin 1) p (0 : Fin 1))) (v7 (ix3 (0 : Fin 1) p (0 : Fin 1)))
          (FloatOps.cos (xc (ix2 a p))) (FloatOps.sin (xc (ix2 a p))) (v2 (ix2 p q)) (v4 (ix2 p q)) := by
  have e1 := col_at xc shapeCasts_S8x256_S8x256x1 broadcasts_S8x256x1_S8x256x256 a p q
  have e2 := tab_at v0 shapeCasts_S256x256_S1x256x256 broadcasts_S1x256x256_S8x256x256 a p q
  have e3 := wid_at v9 broadcasts_S1x256x1_S8x256x256 a p q
  have e4 := wid_at v7 broadcasts_S1x256x1_S8x256x256 a p q
  have e5 := col_at (cos (F := Ideal) (φ := .f32) xc) shapeCasts_S8x256_S8x256x1 broadcasts_S8x256x1_S8x256x256 a p q
  have e6 := col_at (sin (F := Ideal) (φ := .f32) xc) shapeCasts_S8x256_S8x256x1 broadcasts_S8x256x1_S8x256x256 a p q
  have e7 := tab_at v2 shapeCasts_S256x256_S1x256x256 broadcasts_S1x256x256_S8x256x256 a p q
  have e8 := tab_at v4 shapeCasts_S256x256_S1x256x256 broadcasts_S1x256x256_S8x256x256 a p q
  refine Eq.trans (b := entryK
    (FloatOps.subf (broadcastTo S8x256x256 (shapeCast S8x256x1 xc shapeCasts_S8x256_S8x256x1) broadcasts_S8x256x1_S8x256x256 (ix3 a p q))
      (broadcastTo S8x256x256 (shapeCast S1x256x256 v0 shapeCasts_S256x256_S1x256x256) broadcasts_S1x256x256_S8x256x256 (ix3 a p q)))
    (broadcastTo S8x256x256 v9 broadcasts_S1x256x1_S8x256x256 (ix3 a p q))
    (broadcastTo S8x256x256 v7 broadcasts_S1x256x1_S8x256x256 (ix3 a p q))
    (broadcastTo S8x256x256 (shapeCast S8x256x1 (cos (F := Ideal) (φ := .f32) xc) shapeCasts_S8x256_S8x256x1) broadcasts_S8x256x1_S8x256x256 (ix3 a p q))
    (broadcastTo S8x256x256 (shapeCast S8x256x1 (sin (F := Ideal) (φ := .f32) xc) shapeCasts_S8x256_S8x256x1) broadcasts_S8x256x1_S8x256x256 (ix3 a p q))
    (broadcastTo S8x256x256 (shapeCast S1x256x256 v2 shapeCasts_S256x256_S1x256x256) broadcasts_S1x256x256_S8x256x256 (ix3 a p q))
    (broadcastTo S8x256x256 (shapeCast S1x256x256 v4 shapeCasts_S256x256_S1x256x256) broadcasts_S1x256x256_S8x256x256 (ix3 a p q))) rfl ?_
  rw [e1, e2, e3, e4, e5, e6, e7, e8]
  rfl

/-- The four groups are one function: the first, with the tables and widths not yet recast; -/
theorem pay5_eq (v0 v1 v3 : Vec Ideal S256x256 .f32) (v5 : Vec Ideal S1x256 .f32) (x : Vec Ideal S8x256 .f32) :
    k0_pay5 v0 v1 v3 v5 x = k0_pay6 v0 (k0_pay1 v1) (k0_pay2 v3) (k0_pay3 v5) (k0_pay4 v5) x := rfl
/-- the third, whose test and cosine were formed before the second group's store; -/
theorem pay9_eq (v0 : Vec Ideal S256x256 .f32) (v2 v4 : FVec Ideal S256x256 .f32) (v7 v9 : FVec Ideal S1x256x1 .f32) (x : Vec Ideal S8x256 .f32) :
    k0_pay9 v2 v4 x (k0_pay7 v0 v7 v9 x) (k0_pay8 x) = k0_pay6 v0 v2 v4 v7 v9 x := rfl
/-- the fourth. -/
theorem pay10_eq (v0 : Vec Ideal S256x256 .f32) (v2 v4 : FVec Ideal S256x256 .f32) (v7 v9 : FVec Ideal S1x256x1 .f32) (x : Vec Ideal S8x256 .f32) :
    k0_pay10 v0 v2 v4 v7 v9 x = k0_pay6 v0 v2 v4 v7 v9 x := rfl

end Cert.Bin

end
-- ==== Proof.BinBlock.lean ====
/-
  What the body leaves in the output's staging block [32, 256, 256].

  The body writes the block in four stores of eight rows each, at row offsets 0, 8, 16 and 24; the store at offset o
  holds the eight-row function of Proof/BinChunk.lean of rows o … o+7 of the sample block. So the block, read at
  (r, p, q), is the kernel's entry of Proof/BinSpec.lean for row r of the sample block: the four pieces are
  restrictions of that one function and they tile the block.
-/
import proofs.«122054_j69312182222975_2_alg».proof.Proof.Gen.KernelIdeal.Frame
import proofs.«122054_j69312182222975_2_alg».proof.Proof.BinChunk
import Idealize.ShloMosaic.Lib.Pipeline.Value
import Idealize.ShloMosaic.Lib.Tactic

set_option maxRecDepth 16384

noncomputable section

namespace Cert.Bin

open Idealize.ShloMosaic Idealize.ShloMosaic.ValueIdx Idealize.ShloMosaic.TcCoe Idealize.SL.Sem
open Cert.KernelIdeal Cert.KernelIdeal.Gen

theorem hz2 : (![0, 0] : Fin 2 → Nat) = fun _ => 0 := funext fun a => by fin_cases a <;> rfl

/-- The block as one function of the five input blocks: at (r, p, q) the entry for row r of the samples. -/
def blockE (x0 : Vec Ideal S32x256 .f32) (x1 x2 x3 : Vec Ideal S256x256 .f32) (x4 : Vec Ideal S1x256 .f32) :
    S32x256x256.Idx → Ideal .f32 :=
  fun y => cellK x0 x1 x2 x3 x4 (y 0) (y 1) (y 2)

/-- The store at row offset o holds that function on rows o … o+7. -/
theorem piece_eq (x0 : Vec Ideal S32x256 .f32) (x1 x2 x3 : Vec Ideal S256x256 .f32) (x4 : Vec Ideal S1x256 .f32)
    (o : Nat) (inb2 : ∀ a, (![o, 0] : Fin 2 → Nat) a + S8x256.size a ≤ S32x256.size a)
    (inb3 : ∀ a, (![o, 0, 0] : Fin 3 → Nat) a + (![8, 256, 256] : Fin 3 → Nat) a ≤ S32x256x256.size a)
    (x : S8x256x256.Idx) :
    k0_pay6 x1 (k0_pay1 x2) (k0_pay2 x3) (k0_pay3 x4) (k0_pay4 x4) (View.ld x0 (Rect.unit ![o, 0] S8x256.size inb2)) x
      = blockE x0 x1 x2 x3 x4 ((Rect.unit (s := S32x256x256) ![o, 0, 0] ![8, 256, 256] inb3).emb x) := by
  obtain ⟨a, p, q, rfl⟩ : ∃ (a : Fin 8) (p q : Fin 256), x = ix3 a p q := ⟨x 0, x 1, x 2, eq_ix3 x⟩
  have ho : o + a.val < 32 := by have h := inb3 0; have ha := a.isLt; change o + 8 ≤ 32 at h; omega
  rw [chunk_at, tab1_eq, tab2_eq, wid3_at, nwid3_at]
  have hx : View.ld x0 (Rect.unit ![o, 0] S8x256.size inb2) (ix2 a p) = x0 (ix2 (⟨o + a.val, ho⟩ : Fin 32) p) :=
    congrArg x0 (funext fun d => match d with
      | ⟨0, _⟩ => Fin.ext (show o + 1 * a.val = o + a.val by omega)
      | ⟨1, _⟩ => Fin.ext (show 0 + 1 * p.val = p.val by omega))
  have c0 : ((Rect.unit (s := S32x256x256) ![o, 0, 0] ![8, 256, 256] inb3).emb (ix3 a p q)) 0 = (⟨o + a.val, ho⟩ : Fin 32) :=
    Fin.ext (show o + 1 * a.val = o + a.val by omega)
  have c1 : ((Rect.unit (s := S32x256x256) ![o, 0, 0] ![8, 256, 256] inb3).emb (ix3 a p q)) 1 = p :=
    Fin.ext (show 0 + 1 * p.val = p.val by omega)
  have c2 : ((Rect.unit (s := S32x256x256) ![o, 0, 0] ![8, 256, 256] inb3).emb (ix3 a p q)) 2 = q :=
    Fin.ext (show 0 + 1 * q.val = q.val by omega)
  unfold blockE
  rw [c0, c1, c2, hx]
  rfl

/-- THE BLOCK: what the body leaves in the output's staging buffer is that one function of its input blocks. -/
theorem out_eq (c : Dev nD) (i : grid0.Coords) (arg1 : Memref sig .tc .vmem S32x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S32x256x256 .f32) (harg6 : arg6.IsWhole)
    (x0 : Vec Ideal S32x256 .f32) (x1 x2 x3 : Vec Ideal S256x256 .f32) (x4 : Vec Ideal S1x256 .f32) :
    out0_A_5 (F := Ideal) c i arg1 harg1 arg2 harg2 arg3 harg3 arg4 harg4 arg5 harg5 arg6 harg6 x0 x1 x2 x3 x4
      = blockE x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (blockE x0 x1 x2 x3 x4) _ ?_ y
    (cover0_A_5 c i arg1 harg1 arg2 harg2 arg3 harg3 arg4 harg4 arg5 harg5 arg6 harg6 x0 x1 x2 x3 x4 y)
  unfold kernelRun0_A
  dsimp only
  sl_unfold_words
  simp only [pay5_eq, pay9_eq, pay10_eq, View.readAt_eq_ld, harg1.read_unread, harg2.read_unread, harg3.read_unread,
    harg4.read_unread, harg5.read_unread, View.ld_unit_zero (S := S256x256) hz2, View.ld_unit_zero (S := S1x256) hz2]
  refine List.forall_mem_cons.mpr ⟨fun x => piece_eq x0 x1 x2 x3 x4 24 (by decide) (by decide) x, List.forall_mem_cons.mpr
    ⟨fun x => piece_eq x0 x1 x2 x3 x4 16 (by decide) (by decide) x, List.forall_mem_cons.mpr ⟨fun x => piece_eq x0 x1 x2 x3 x4 8 (by decide) (by decide) x,
      List.forall_mem_cons.mpr ⟨fun x => piece_eq x0 x1 x2 x3 x4 0 (by decide) (by decide) x, fun _ h => absurd h List.not_mem_nil⟩⟩⟩⟩

end Cert.Bin

end
-- ==== Proof.BinArray.lean ====
/-
  The kernel's output array [1024, 256, 256], and its result [1024, 65536].

  Grid point t handles sample rows 32t … 32t+31: its sample block is those rows, its four other input blocks are the
  whole arrays, and it writes rows 32t … 32t+31 of the output. With the block of Proof/BinBlock.lean this makes the
  block written at point t the restriction to those rows of ONE function of the five arrays — at (r, p, q) the
  kernel's entry of Proof/BinSpec.lean for sample row r — and the 32 blocks tile the array (row r lies in block
  r / 32). The four arrays the region finds beside the samples are, by the host lines before it, the centres,
  0.5·cos and 0.5·sin of the centres, and the half-widths recast to a row. The host line after the region recasts
  the array to [1024, 65536].
-/
import proofs.«122054_j69312182222975_2_alg».proof.Proof.Gen.KernelIdeal.Frame
import proofs.«122054_j69312182222975_2_alg».proof.Proof.BinBlock
import Idealize.ShloMosaic.Lib.Pipeline.Value
import Idealize.ShloMosaic.Lib.StableHlo.Run

set_option maxRecDepth 16384

noncomputable section

namespace Cert.Bin

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output array as one function of the five arrays the region reads. -/
def arrayK (X : Vec Ideal S1024x256 .f32) (T C S : Vec Ideal S256x256 .f32) (W : Vec Ideal S1x256 .f32) :
    S1024x256x256.Idx → Ideal .f32 :=
  fun i => cellK X T C S W (i 0) (i 1) (i 2)

/-- The block indices over the grid: the samples' and the output's block at point t is block t along the rows; every
    other block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The sample block at point t, read at (a, p), is the samples at (32t + a, p). -/
theorem rd0 (c : Dev nD) (t : Fin cfg0.N) (a : Fin 32) (p : Fin 256) (h : t.val * 32 + a.val < 1024) :
    iblk m c 0 t (ix2 a p) = V m c main_arg0 (ix2 (⟨t.val * 32 + a.val, h⟩ : Fin 1024) p) := by
  obtain ⟨e0, e1, -⟩ := idx_facts t
  show V m c main_arg0 (((cfg0.win 0).blk t).view.emb (ix2 a p)) = _
  refine congrArg (V m c main_arg0) (funext fun d => Fin.ext ?_)
  match d with
  | ⟨0, _⟩ => show win0_0.index t (0 : Fin 2) * 32 + 1 * a.val = t.val * 32 + a.val; rw [e0]; omega
  | ⟨1, _⟩ => show win0_0.index t (1 : Fin 2) * 256 + 1 * p.val = p.val; rw [e1]; omega

/-- The other input blocks are their whole arrays. -/
theorem rd1 (c : Dev nD) (t : Fin cfg0.N) (p q : Fin 256) : iblk m c 1 t (ix2 p q) = V m c main_arg1 (ix2 p q) := by
  obtain ⟨-, -, e0, e1, -⟩ := idx_facts t
  show V m c main_arg1 (((cfg0.win 1).blk t).view.emb (ix2 p q)) = _
  refine congrArg (V m c main_arg1) (funext fun d => Fin.ext ?_)
  match d with
  | ⟨0, _⟩ => show win0_1.index t (0 : Fin 2) * 256 + 1 * p.val = p.val; rw [e0]; omega
  | ⟨1, _⟩ => show win0_1.index t (1 : Fin 2) * 256 + 1 * q.val = q.val; rw [e1]; omega

theorem rd2 (c : Dev nD) (t : Fin cfg0.N) (p q : Fin 256) : iblk m c 2 t (ix2 p q) = V m c main_v2 (ix2 p q) := by
  obtain ⟨-, -, -, -, e0, e1, -⟩ := idx_facts t
  show V m c main_v2 (((cfg0.win 2).blk t).view.emb (ix2 p q)) = _
  refine congrArg (V m c main_v2) (funext fun d => Fin.ext ?_)
  match d with
  | ⟨0, _⟩ => show win0_2.index t (0 : Fin 2) * 256 + 1 * p.val = p.val; rw [e0]; omega
  | ⟨1, _⟩ => show win0_2.index t (1 : Fin 2) * 256 + 1 * q.val = q.val; rw [e1]; omega

theorem rd3 (c : Dev nD) (t : Fin cfg0.N) (p q : Fin 256) : iblk m c 3 t (ix2 p q) = V m c main_v5 (ix2 p q) := by
  obtain ⟨-, -, -, -, -, -, e0, e1, -⟩ := idx_facts t
  show V m c main_v5 (((cfg0.win 3).blk t).view.emb (ix2 p q)) = _
  refine congrArg (V m c main_v5) (funext fun d => Fin.ext ?_)
  match d with
  | ⟨0, _⟩ => show win0_3.index t (0 : Fin 2) * 256 + 1 * p.val = p.val; rw [e0]; omega
  | ⟨1, _⟩ => show win0_3.index t (1 : Fin 2) * 256 + 1 * q.val = q.val; rw [e1]; omega

theorem rd4 (c : Dev nD) (t : Fin cfg0.N) (p : Fin 256) :
    iblk m c 4 t (ix2 (0 : Fin 1) p) = V m c main_v6 (ix2 (0 : Fin 1) p) := by
  obtain ⟨-, -, -, -, -, -, -, -, e0, e1, -⟩ := idx_facts t
  show V m c main_v6 (((cfg0.win 4).blk t).view.emb (ix2 (0 : Fin 1) p)) = _
  refine congrArg (V m c main_v6) (funext fun d => Fin.ext ?_)
  match d with
  | ⟨0, _⟩ => show win0_4.index t (0 : Fin 2) * 1 + 1 * 0 = 0; rw [e0]
  | ⟨1, _⟩ => show win0_4.index t (1 : Fin 2) * 256 + 1 * p.val = p.val; rw [e1]; omega

/-- WHAT POINT t WRITES BACK is block t of the one function of the arrays as the region finds them. -/
theorem flushed_eq (c : Dev nD) (t : Fin cfg0.N) :
    (dats m 0 c).flushed 5 t = ((cfg0.win 5).blk t).view.read (Elt Ideal)
      (arrayK (V m c main_arg0) (V m c main_arg1) (V m c main_v2) (V m c main_v5) (V m c main_v6)) := by
  show (cfg0.win 5).cut (grid0.coords t) ((dats m 0 c).after 5 t) = _
  rw [after0_5]
  unfold outsAt0
  rw [out_eq]
  have hN : cfg0.N = 32 := N_0
  obtain ⟨-, -, -, -, -, -, -, -, -, -, e0, e1, e2⟩ := idx_facts t
  funext j
  obtain ⟨a, p, q, rfl⟩ : ∃ (a : Fin 32) (p q : Fin 256), j = ix3 a p q := ⟨j 0, j 1, j 2, eq_ix3 j⟩
  have ht : t.val * 32 + a.val < 1024 := by have := t.isLt; have := a.isLt; omega
  have c0 : (((cfg0.win 5).blk t).view.emb (ix3 a p q)) 0 = (⟨t.val * 32 + a.val, ht⟩ : Fin 1024) :=
    Fin.ext (by show win0_5.index t (0 : Fin 3) * 32 + 1 * a.val = t.val * 32 + a.val; rw [e0]; omega)
  have c1 : (((cfg0.win 5).blk t).view.emb (ix3 a p q)) 1 = p :=
    Fin.ext (by show win0_5.index t (1 : Fin 3) * 256 + 1 * p.val = p.val; rw [e1]; omega)
  have c2 : (((cfg0.win 5).blk t).view.emb (ix3 a p q)) 2 = q :=
    Fin.ext (by show win0_5.index t (2 : Fin 3) * 256 + 1 * q.val = q.val; rw [e2]; omega)
  show cellK (iblk m c 0 t) (iblk m c 1 t) (iblk m c 2 t) (iblk m c 3 t) (iblk m c 4 t) a p q
    = cellK (V m c main_arg0) (V m c main_arg1) (V m c main_v2) (V m c main_v5) (V m c main_v6)
        ((((cfg0.win 5).blk t).view.emb (ix3 a p q)) 0) ((((cfg0.win 5).blk t).view.emb (ix3 a p q)) 1)
        ((((cfg0.win 5).blk t).view.emb (ix3 a p q)) 2)
  rw [c0, c1, c2]
  unfold cellK
  rw [rd0 m c t a p ht, rd1, rd2, rd3, rd4]

/-- An index of the array is in point t's block iff each coordinate is in the block's range on its axis. -/
theorem mem_blk (t : Fin cfg0.N) (i : S1024x256x256.Idx) :
    i ∈ ((cfg0.win 5).blk t).view.set ↔ ∀ a : Fin 3, win0_5.index t a * S32x256x256.size a ≤ (i a).val
      ∧ (i a).val < win0_5.index t a * S32x256x256.size a + S32x256x256.size a := by
  show i ∈ ((View.whole main_v7).slice (win0_5.rect t)).set ↔ _
  rw [View.set_slice_whole, Rect.mem_set_unit]
  exact Iff.rfl

/-- Row r of the array lies in the block of point r / 32. -/
theorem cover (i : S1024x256x256.Idx) :
    ∃ t : Fin cfg0.N, (cfg0.win 5).flush t = true ∧ i ∈ ((cfg0.win 5).blk t).view.set := by
  have hN : cfg0.N = 32 := N_0
  have h0 : (i 0).val < 1024 := (i 0).isLt
  have h1 : (i 1).val < 256 := (i 1).isLt
  have h2 : (i 2).val < 256 := (i 2).isLt
  have hlt : (i 0).val / 32 < cfg0.N := by rw [hN]; omega
  refine ⟨⟨(i 0).val / 32, hlt⟩, flush0_5 _, ?_⟩
  obtain ⟨-, -, -, -, -, -, -, -, -, -, e0, e1, e2⟩ := idx_facts ⟨(i 0).val / 32, hlt⟩
  rw [mem_blk]
  intro a
  match a with
  | ⟨0, _⟩ =>
    show win0_5.index ⟨(i 0).val / 32, hlt⟩ (0 : Fin 3) * 32 ≤ (i 0).val ∧ (i 0).val < win0_5.index ⟨(i 0).val / 32, hlt⟩ (0 : Fin 3) * 32 + 32
    rw [e0]; show (i 0).val / 32 * 32 ≤ (i 0).val ∧ (i 0).val < (i 0).val / 32 * 32 + 32; omega
  | ⟨1, _⟩ =>
    show win0_5.index ⟨(i 0).val / 32, hlt⟩ (1 : Fin 3) * 256 ≤ (i 1).val ∧ (i 1).val < win0_5.index ⟨(i 0).val / 32, hlt⟩ (1 : Fin 3) * 256 + 256
    rw [e1]; omega
  | ⟨2, _⟩ =>
    show win0_5.index ⟨(i 0).val / 32, hlt⟩ (2 : Fin 3) * 256 ≤ (i 2).val ∧ (i 2).val < win0_5.index ⟨(i 0).val / 32, hlt⟩ (2 : Fin 3) * 256 + 256
    rw [e2]; omega

/-- THE ARRAY after the region: the one function of the arrays the region found. -/
theorem final (c : Dev nD) : (dats m 0 c).arrAt 5 cfg0.N
    = arrayK (V m c main_arg0) (V m c main_arg1) (V m c main_v2) (V m c main_v5) (V m c main_v6) :=
  (dats m 0 c).arrAt_eq_of_cover 5 _ (fun t _ => flushed_eq m c t) cover

end Cert.Bin

end
-- ==== Proof.BinRun.lean ====
/-
  The idealized kernel's run, read.

  Every weakly fair execution of the program terminates with its result buffer at the array of Proof/BinArray.lean of
  the arguments — the samples and the centres as launched, 0.5·cos and 0.5·sin of the centres as the host lines
  before the region computed them, the half-widths recast to a row — recast to [1024, 65536] by the host line after
  the region, and with the three arguments unchanged.
-/
import proofs.«122054_j69312182222975_2_alg».proof.Proof.Gen.KernelIdeal.Frame
import proofs.«122054_j69312182222975_2_alg».proof.Proof.BinArray
import Idealize.ShloMosaic.Lib.Pipeline.Value
import Idealize.ShloMosaic.Lib.StableHlo.Run

set_option maxRecDepth 16384

noncomputable section

namespace Cert.Bin

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The region finds 0.5·cos of the centres, -/
theorem hv2 (c : Dev nD) : (V m c main_v2 : S256x256.Idx → Ideal .f32)
    = mulf (broadcastInDim S256x256 ![] bcast_S_S256x256 (constant (F := Ideal) S_ .f32 0x3F000000#32))
        (Host.cos (F := Ideal) (φ := .f32) (m ((c : Thread nD τ).loc main_arg1))) := by
  show StableHlo.after hostOps0 (fun b => m (c, b)) (Proc.devRef .tc main_v2) = _
  after_results <;> rfl

/-- 0.5·sin of the centres, -/
theorem hv5 (c : Dev nD) : (V m c main_v5 : S256x256.Idx → Ideal .f32)
    = mulf (broadcastInDim S256x256 ![] bcast_S_S256x256 (constant (F := Ideal) S_ .f32 0x3F000000#32))
        (Host.sin (F := Ideal) (φ := .f32) (m ((c : Thread nD τ).loc main_arg1))) := by
  show StableHlo.after hostOps0 (fun b => m (c, b)) (Proc.devRef .tc main_v5) = _
  after_results <;> rfl

/-- and the half-widths as a row. -/
theorem hv6 (c : Dev nD) : (V m c main_v6 : S1x256.Idx → Ideal .f32)
    = shapeCast S1x256 (m ((c : Thread nD τ).loc main_arg2)) shapeCasts_S256_S1x256 := by
  show StableHlo.after hostOps0 (fun b => m (c, b)) (Proc.devRef .tc main_v6) = _
  after_results <;> rfl

/-- The result as a function of the launch contents of the three arguments. -/
def resultK (c : Dev nD) : Buf (Elt Ideal) ((c : Thread nD τ).loc main_v8) :=
  shapeCast S1024x65536
    (arrayK (m ((c : Thread nD τ).loc main_arg0)) (m ((c : Thread nD τ).loc main_arg1))
      (mulf (broadcastInDim S256x256 ![] bcast_S_S256x256 (constant (F := Ideal) S_ .f32 0x3F000000#32))
        (Host.cos (F := Ideal) (φ := .f32) (m ((c : Thread nD τ).loc main_arg1))))
      (mulf (broadcastInDim S256x256 ![] bcast_S_S256x256 (constant (F := Ideal) S_ .f32 0x3F000000#32))
        (Host.sin (F := Ideal) (φ := .f32) (m ((c : Thread nD τ).loc main_arg1))))
      (shapeCast S1x256 (m ((c : Thread nD τ).loc main_arg2)) shapeCasts_S256_S1x256))
    shapeCasts_S1024x256x256_S1024x65536

/-- The host line after the region recasts the array the region left. -/
theorem tail_eq (c : Dev nD) :
    Pipeline.afterTail₀ cfgs (dats m) 0 (V0 m) [hostOps1] c main_v8 = resultK m c := by
  unfold resultK
  rw [← hv2 m c, ← hv5 m c, ← hv6 m c, ← V_main_arg0 m c, ← V_main_arg1 m c]
  unfold Pipeline.afterTail₀
  show StableHlo.after hostOps1 _ (Proc.devRef .tc main_v8) = _
  after_results
  exact congrArg (fun A : S1024x256x256.Idx → Ideal .f32 => shapeCast S1024x65536 A shapeCasts_S1024x256x256_S1024x65536)
    ((Pipeline.withArrays_arr spec0 launch0.win.arr_inj c _ _ 5).trans (final m c))

/-- THE RUN: the result at that function of the arguments, the arguments unchanged. -/
theorem runK : θ_run defs (onTc (τ := τ) (main (F := Ideal))) ⟨m, fun _ => 0, ρ⟩ fun r => ∀ c : Dev nD,
      r.2.mem ((c.tc : Thread nD τ).loc main_v8) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Bin

end
-- ==== Proof.BinRef.lean ====
/-
  The reference's array [1024, 256, 256] before its final reshape.

  The reference broadcasts the samples along a new last axis and the centres along a new first axis, subtracts,
  compares the difference with −w and w broadcast from the half-widths along the first and last axes, takes
  0.5·cos(difference) + 0.5 and selects it, or 0, by the test. Read at (r, p, q) every broadcast is its operand at the
  coordinates the operand has, so the entry is the reference's entry of Proof/BinSpec.lean of X (r, p), T (p, q), w p.
-/
import proofs.«122054_j69312182222975_2_alg».proof.Proof.Gen.ReferenceIdeal.Read
import proofs.«122054_j69312182222975_2_alg».proof.Proof.BinSpec
import Idealize.ShloMosaic.Lib.ValueIdx

noncomputable section

namespace Cert.Bin

open Idealize.ShloMosaic Idealize.ShloMosaic.ValueIdx
open Cert.ReferenceIdeal Cert.ReferenceIdeal.Gen Cert.ReferenceIdeal.Read

/-- The reference's array as one function of the three argument arrays. -/
def arrayR (x0 : (⟨S1024x256, .f32⟩ : BufTy).Contents (Elt Ideal)) (x1 : (⟨S256x256, .f32⟩ : BufTy).Contents (Elt Ideal))
    (x2 : (⟨S256, .f32⟩ : BufTy).Contents (Elt Ideal)) : S1024x256x256.Idx → Ideal .f32 :=
  fun i => cellR x0 x1 x2 (i 0) (i 1) (i 2)

theorem ref_eq (x0 : (⟨S1024x256, .f32⟩ : BufTy).Contents (Elt Ideal)) (x1 : (⟨S256x256, .f32⟩ : BufTy).Contents (Elt Ideal))
    (x2 : (⟨S256, .f32⟩ : BufTy).Contents (Elt Ideal)) :
    val_main_v17 (F := Ideal) x0 x1 x2 = arrayR x0 x1 x2 := by
  funext i
  obtain ⟨r, p, q, rfl⟩ : ∃ (r : Fin 1024) (p q : Fin 256), i = ix3 r p q := ⟨i 0, i 1, i 2, eq_ix3 i⟩
  have i0 : idx_main_v0 (idx_main_v2 (ix3 r p q)) = ix2 r p :=
    funext fun a => match a with | ⟨0, _⟩ => rfl | ⟨1, _⟩ => rfl
  have i1 : idx_main_v1 (idx_main_v3 (ix3 r p q)) = ix2 p q :=
    funext fun a => match a with | ⟨0, _⟩ => rfl | ⟨1, _⟩ => rfl
  have i5 : idx_main_v5 (idx_main_v7 (ix3 r p q)) = ix1 p :=
    funext fun a => match a with | ⟨0, _⟩ => rfl
  have i9 : idx_main_v5 (idx_main_v9 (ix3 r p q)) = ix1 p :=
    funext fun a => match a with | ⟨0, _⟩ => rfl
  simp only [val_main_v17_apply, val_main_v11_apply, val_main_v8_apply, val_main_v10_apply, val_main_v16_apply,
    val_main_v14_apply, val_main_v12_apply, val_main_v4_apply, val_main_v2_apply, val_main_v0_apply, val_main_v3_apply,
    val_main_v1_apply, val_main_v7_apply, val_main_v6_apply, val_main_v9_apply, val_main_v5_apply, val_main_v13_apply,
    val_main_cst_apply, val_main_v15_apply, val_main_cst_0_apply, val_main_call0_v0_apply, val_main_cst_1_apply,
    i0, i1, i5, i9]
  rfl

end Cert.Bin

end
-- ==== Proof.BinLaw.lean ====
/-
  The two entries agree, array by array.

  Feed the kernel's entry the tables C = 0.5·cos T and S = 0.5·sin T (entry by entry) and a row W whose entry
  (0, p) is the half-width w p. Where the sample X (r, p) and the centre T (p, q) are real numbers, the kernel's
  entry for (r, p, q) is the reference's: this is the scalar law of Proof/BinSpec.lean read at the arrays' entries.
-/
import proofs.«122054_j69312182222975_2_alg».proof.Proof.BinSpec

noncomputable section

namespace Cert.Bin

open Idealize.ShloMosaic Idealize.ShloMosaic.ValueIdx Cert.LibRealSum

theorem cellK_eq_cellR {R : Nat} (X : (⟨2, ![R, 256]⟩ : Shape).Idx → Ideal .f32)
    (T C S : (⟨2, ![256, 256]⟩ : Shape).Idx → Ideal .f32) (W : (⟨2, ![1, 256]⟩ : Shape).Idx → Ideal .f32)
    (w : (⟨1, ![256]⟩ : Shape).Idx → Ideal .f32) (r : Fin R) (p q : Fin 256)
    (hC : C (ix2 p q) = FloatOps.mulf (FloatOps.ofBits .f32 0x3F000000#32) (FloatOps.hostUnary .cos (T (ix2 p q))))
    (hS : S (ix2 p q) = FloatOps.mulf (FloatOps.ofBits .f32 0x3F000000#32) (FloatOps.hostUnary .sin (T (ix2 p q))))
    (hW : W (ix2 (0 : Fin 1) p) = w (ix1 p))
    (hX : IsReal (X (ix2 r p))) (hT : IsReal (T (ix2 p q))) :
    cellK X T C S W r p q = cellR X T w r p q := by
  unfold cellK cellR
  rw [hC, hS, hW]
  exact entryK_eq_entryR _ _ _ hX hT

end Cert.Bin

end
-- ==== Proof.BinBridge.lean ====
/-
  The kernel's array is the reference's array.

  With the tables the host hands the kernel — 0.5·cos and 0.5·sin of the centres, entry by entry, and the half-widths
  recast from [256] to the row [1, 256] — the kernel's array of Proof/BinArray.lean equals the reference's array of
  Proof/BinRef.lean at every index, provided every sample and every centre is a real number: the law of
  Proof/BinLaw.lean at each (r, p, q).
-/
import proofs.«122054_j69312182222975_2_alg».proof.Proof.BinArray
import proofs.«122054_j69312182222975_2_alg».proof.Proof.BinRef
import proofs.«122054_j69312182222975_2_alg».proof.Proof.BinLaw
import Idealize.ShloMosaic.Lib.ValueLayout

noncomputable section

namespace Cert.Bin

open Idealize.ShloMosaic Idealize.ShloMosaic.ValueIdx Cert.LibRealSum

/-- The scalar 0.5 broadcast to [256, 256] is 0.5 at every entry. -/
theorem half_at (h : Cert.KernelIdeal.S_.BroadcastsInDim Cert.KernelIdeal.S256x256 (![] : Fin 0 → Fin Cert.KernelIdeal.S256x256.rank))
    (j : Cert.KernelIdeal.S256x256.Idx) :
    broadcastInDim Cert.KernelIdeal.S256x256 ![] h (constant (F := Ideal) Cert.KernelIdeal.S_ .f32 0x3F000000#32) j
      = FloatOps.ofBits (F := Ideal) .f32 0x3F000000#32 :=
  broadcastInDim_apply _ h _ j ix0 (fun a => a.elim0)

theorem arrays_eq (X : Vec Ideal Cert.KernelIdeal.S1024x256 .f32) (T : Vec Ideal Cert.KernelIdeal.S256x256 .f32)
    (w : Vec Ideal Cert.KernelIdeal.S256 .f32)
    (hb : Cert.KernelIdeal.S_.BroadcastsInDim Cert.KernelIdeal.S256x256 (![] : Fin 0 → Fin Cert.KernelIdeal.S256x256.rank))
    (hs : Cert.KernelIdeal.S256.ShapeCasts Cert.KernelIdeal.S1x256)
    (hX : ∀ i, IsReal (X i)) (hT : ∀ i, IsReal (T i)) :
    arrayK X T
        (mulf (broadcastInDim Cert.KernelIdeal.S256x256 ![] hb (constant (F := Ideal) Cert.KernelIdeal.S_ .f32 0x3F000000#32))
          (Host.cos (F := Ideal) (φ := .f32) T))
        (mulf (broadcastInDim Cert.KernelIdeal.S256x256 ![] hb (constant (F := Ideal) Cert.KernelIdeal.S_ .f32 0x3F000000#32))
          (Host.sin (F := Ideal) (φ := .f32) T))
        (shapeCast Cert.KernelIdeal.S1x256 w hs)
      = arrayR X T w := by
  funext i
  refine cellK_eq_cellR X T _ _ _ w (i 0) (i 1) (i 2) ?_ ?_ ?_ (hX _) (hT _)
  · show FloatOps.mulf (broadcastInDim Cert.KernelIdeal.S256x256 ![] hb (constant (F := Ideal) Cert.KernelIdeal.S_ .f32 0x3F000000#32) (ix2 (i 1) (i 2)))
        (FloatOps.hostUnary .cos (T (ix2 (i 1) (i 2)))) = _
    rw [half_at]
  · show FloatOps.mulf (broadcastInDim Cert.KernelIdeal.S256x256 ![] hb (constant (F := Ideal) Cert.KernelIdeal.S_ .f32 0x3F000000#32) (ix2 (i 1) (i 2)))
        (FloatOps.hostUnary .sin (T (ix2 (i 1) (i 2)))) = _
    rw [half_at]
  · exact shapeCast_a_1a_apply w hs (0 : Fin 1) (i 1)

end Cert.Bin

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«122054_j69312182222975_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.BinFinite.lean ====
/-
  Under the precondition the samples and the centres are real numbers.

  The precondition is the conjunction of three tests, one per argument array, each the conjunction over the whole
  array of |entry| < +∞. If it holds, each of the three does, and then every entry of that array is a real number.
-/
import proofs.«122054_j69312182222975_2_alg».proof.Pre_finite_inputs
import proofs.«122054_j69312182222975_2_alg».proof.Proof.LibFiniteAll
import Idealize.ShloMosaic.Lib.ReduceAll
import Idealize.ShloMosaic.Lib.ValueIdx

noncomputable section

namespace Cert.Bin

open Idealize.ShloMosaic Cert.LibRealSum Cert.Pre_finite_inputs

theorem real_of_pre [Cert.Pre_finite_inputs.Facts] (x0 : FVec Ideal S1024x256 .f32) (x1 : FVec Ideal S256x256 .f32)
    (x2 : FVec Ideal S256 .f32) (h : Cert.Pre_finite_inputs.fn (F := Ideal) x0 x1 x2 = fun _ => 1#1) :
    (∀ i, IsReal (x0 i)) ∧ (∀ i, IsReal (x1 i)) := by
  have h0 := congrFun h ValueIdx.ix0
  dsimp only [Cert.Pre_finite_inputs.fn] at h0
  obtain ⟨h01, -⟩ := IntOp.andi_eq_one.mp h0
  obtain ⟨ha, hb⟩ := IntOp.andi_eq_one.mp h01
  exact ⟨fun i => Cert.Lib.FiniteAll.all_real x0 _ _ _ _ ha i, fun i => Cert.Lib.FiniteAll.all_real x1 _ _ _ _ hb i⟩

end Cert.Bin

end
-- ==== Proof.lean ====
/-
  A binned cosine window: for samples x [1024, 256], bin centres φ [256, 256] and half-widths w [256] the result
  [1024, 65536] holds, at row k and column 256·i + j,
      0.5·cos(x[k,i] − φ[i,j]) + 0.5   when  −w[i] < x[k,i] − φ[i,j] ≤ w[i],   and 0 otherwise.

  The reference evaluates this expression. The kernel is handed 0.5·cos φ and 0.5·sin φ, computed by the host, and
  forms cos x · (0.5·cos φ) + sin x · (0.5·sin φ) + 0.5 under the same test, 32 sample rows per grid point, eight
  rows per store. Over the extended reals with finite samples and centres the two values agree by the subtraction
  formula of the cosine and distributivity of the reals (Proof/BinSpec.lean, Proof/BinLaw.lean); the rest of the
  proof reads both programs' results as functions of the arguments, index by index (the kernel: Proof/BinChunk.lean,
  Proof/BinBlock.lean, Proof/BinArray.lean, Proof/BinRun.lean; the reference: its generated run and
  Proof/BinRef.lean), uses the precondition for finiteness (Proof/BinFinite.lean) and joins the two arrays
  (Proof/BinBridge.lean). Both programs end with the same recast of [1024, 256, 256] to [1024, 65536].
  The ideal pass rewrote nothing in the kernel, so that conjunct is trivial; the frames of the two kernel programs
  are the generated ones, the reference's frame is its generated run with the result dropped.
-/
import proofs.«122054_j69312182222975_2_alg».proof.Defs
import proofs.«122054_j69312182222975_2_alg».proof.Proof.Gen.Kernel
import proofs.«122054_j69312182222975_2_alg».proof.Proof.Gen.Kernel.Skeleton
import proofs.«122054_j69312182222975_2_alg».proof.Proof.Gen.Kernel.Launch
import proofs.«122054_j69312182222975_2_alg».proof.Proof.Gen.Kernel.Points
import proofs.«122054_j69312182222975_2_alg».proof.Proof.Gen.Kernel.Frame
import proofs.«122054_j69312182222975_2_alg».proof.Proof.Gen.KernelIdeal
import proofs.«122054_j69312182222975_2_alg».proof.Proof.Gen.KernelIdeal.Skeleton
import proofs.«122054_j69312182222975_2_alg».proof.Proof.Gen.KernelIdeal.Launch
import proofs.«122054_j69312182222975_2_alg».proof.Proof.Gen.KernelIdeal.Points
import proofs.«122054_j69312182222975_2_alg».proof.Proof.Gen.KernelIdeal.Frame
import proofs.«122054_j69312182222975_2_alg».proof.Proof.Gen.ReferenceIdeal
import proofs.«122054_j69312182222975_2_alg».proof.Proof.Gen.Pre_finite_inputs
import proofs.«122054_j69312182222975_2_alg».proof.Proof.Gen.ReferenceIdeal.Run
import proofs.«122054_j69312182222975_2_alg».proof.Proof.Gen.ReferenceIdeal.Read
import proofs.«122054_j69312182222975_2_alg».proof.Proof.BinRun
import proofs.«122054_j69312182222975_2_alg».proof.Proof.BinBridge
import proofs.«122054_j69312182222975_2_alg».proof.Proof.BinFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one function of the arguments: the kernel's array recast, which under the
    precondition is the reference's array recast the same way. -/
theorem algebraic : Cert.algebraic_KernelIdeal_ReferenceIdeal := by
  intro m ρ m' ρ' hpre hagree
  refine ⟨fun c => Cert.Bin.resultK m c, Cert.Bin.runK m ρ, ?_⟩
  refine (θ_run Cert.ReferenceIdeal.defs _ _).mono (fun _ h c => ⟨(h c).1.trans ?_, (h c).2⟩)
    (Cert.ReferenceIdeal.Value.run (F := Ideal) m' ρ')
  obtain ⟨hX, hT⟩ := Cert.Bin.real_of_pre _ _ _ (hpre c)
  rw [Cert.ReferenceIdeal.Read.val_main_v18_eq]
  unfold Cert.ReferenceIdeal.Read.val_main_v18
  rw [Cert.Bin.ref_eq, (hagree c).1, (hagree c).2.1, (hagree c).2.2]
  show _ = Cert.Bin.resultK m c
  unfold Cert.Bin.resultK
  rw [Cert.Bin.arrays_eq _ _ _ _ _ hX hT]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
